-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S1000x512 : Shape := ⟨2, ![1000, 512]⟩
abbrev S_ : Shape := ⟨0, ![]⟩
abbrev S32768 : Shape := ⟨1, ![32768]⟩
abbrev S1000 : Shape := ⟨1, ![1000]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S1000x512 : S_.BroadcastsInDim S1000x512 (![] : Fin 0 → Fin S1000x512.rank)
  reducesTo_S1000x512_S_d0_1 : S1000x512.ReducesTo [0, 1] S_
  reducesTo_S32768x512_S32768_d1 : S32768x512.ReducesTo [1] S32768
  bcast_S_S32768 : S_.BroadcastsInDim S32768 (![] : Fin 0 → Fin S32768.rank)
  reducesTo_S32768_S_d0 : S32768.ReducesTo [0] S_
  reducesTo_S1000x512_S1000_d1 : S1000x512.ReducesTo [1] S1000
  bcast_S_S1000 : S_.BroadcastsInDim S1000 (![] : Fin 0 → Fin S1000.rank)
  reducesTo_S1000_S_d0 : S1000.ReducesTo [0] S_

variable [Facts]

def fn_part1 {F : FTy → Type} [FloatOps F] (main_v14 : IVec S_ 1) (main_v15 : FVec F S1000x512 .f32) (main_cst_5 : FVec F S_ .f32) : IVec S_ 1 :=
  let main_v16 : FVec F S1000 .f32 := (fun x v => Host.reduceAdd x v reducesTo_S1000x512_S1000_d1 h_S_) main_v15 main_cst_5
  let main_cst_6 : FVec F S_ .f32 := constant S_ .f32 0x00000000#32
  let main_v17 : FVec F S1000 .f32 := broadcastInDim S1000 ![] bcast_S_S1000 main_cst_6
  let main_v18 : IVec S1000 1 := cmpf .ogt main_v16 main_v17
  let main_c_7 : IVec S_ 1 := constantI S_ 1 1#1
  let main_v19 : IVec S_ 1 := (fun x v => Host.reduce IntOp.andi x v reducesTo_S1000_S_d0 h_S_) main_v18 main_c_7
  let main_v20 : IVec S_ 1 := andi main_v14 main_v19
  main_v20

def fn {F : FTy → Type} [FloatOps F] (main_arg0 : FVec F S32768x512 .f32) (main_arg1 : FVec F S1000x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S1000x512 .f32 := Host.absf main_arg1
  let main_cst_0 : FVec F S_ .f32 := constant S_ .f32 0x7F800000#32
  let main_v5 : FVec F S1000x512 .f32 := broadcastInDim S1000x512 ![] bcast_S_S1000x512 main_cst_0
  let main_v6 : IVec S1000x512 1 := cmpf .olt main_v4 main_v5
  let main_c_1 : IVec S_ 1 := constantI S_ 1 1#1
  let main_v7 : IVec S_ 1 := (fun x v => Host.reduce IntOp.andi x v reducesTo_S1000x512_S_d0_1 h_S_) main_v6 main_c_1
  let main_v8 : IVec S_ 1 := andi main_v3 main_v7
  let main_v9 : FVec F S32768x512 .f32 := mulf main_arg0 main_arg0
  let main_cst_2 : FVec F S_ .f32 := constant S_ .f32 0x00000000#32
  let main_v10 : FVec F S32768 .f32 := (fun x v => Host.reduceAdd x v reducesTo_S32768x512_S32768_d1 h_S_) main_v9 main_cst_2
  let main_cst_3 : FVec F S_ .f32 := constant S_ .f32 0x00000000#32
  let main_v11 : FVec F S32768 .f32 := broadcastInDim S32768 ![] bcast_S_S32768 main_cst_3
  let main_v12 : IVec S32768 1 := cmpf .ogt main_v10 main_v11
  let main_c_4 : IVec S_ 1 := constantI S_ 1 1#1
  let main_v13 : IVec S_ 1 := (fun x v => Host.reduce IntOp.andi x v reducesTo_S32768_S_d0 h_S_) main_v12 main_c_4
  let main_v14 : IVec S_ 1 := andi main_v8 main_v13
  let main_v15 : FVec F S1000x512 .f32 := mulf main_arg1 main_arg1
  let main_cst_5 : FVec F S_ .f32 := constant S_ .f32 0x00000000#32
  fn_part1 (F := F) main_v14 main_v15 main_cst_5
-- ==== Kernel.lean ====
abbrev S32768x512 : Shape := ⟨2, ![32768, 512]⟩
abbrev S1000x512 : Shape := ⟨2, ![1000, 512]⟩
abbrev S_ : Shape := ⟨0, ![]⟩
abbrev S1000 : Shape := ⟨1, ![1000]⟩
abbrev S1x1000 : Shape := ⟨2, ![1, 1000]⟩
abbrev S32768x1000 : Shape := ⟨2, ![32768, 1000]⟩
abbrev S2048x512 : Shape := ⟨2, ![2048, 512]⟩
abbrev S2048x1000 : Shape := ⟨2, ![2048, 1000]⟩
abbrev S2048 : Shape := ⟨1, ![2048]⟩
abbrev S2048x1 : Shape := ⟨2, ![2048, 1]⟩

abbrev nBuf : Space → Nat
  | .hbm => 11
  | .vmem => 6
  | .smem => 0
  | _ => 0

abbrev bufTy : (tb : Table) → Fin (tcTables nBuf tb) → BufTy
  | .hbm, ⟨0, _⟩ => ⟨S32768x512, .f32⟩
  | .hbm, ⟨1, _⟩ => ⟨S1000x512, .f32⟩
  | .hbm, ⟨2, _⟩ => ⟨S1000x512, .f32⟩
  | .hbm, ⟨3, _⟩ => ⟨S_, .f32⟩
  | .hbm, ⟨4, _⟩ => ⟨S1000, .f32⟩
  | .hbm, ⟨5, _⟩ => ⟨S1000, .f32⟩
  | .hbm, ⟨6, _⟩ => ⟨S_, .f32⟩
  | .hbm, ⟨7, _⟩ => ⟨S1000, .f32⟩
  | .hbm, ⟨8, _⟩ => ⟨S1000, .f32⟩
  | .hbm, ⟨9, _⟩ => ⟨S1x1000, .f32⟩
  | .hbm, ⟨10, _⟩ => ⟨S32768x1000, .f32⟩
  | .local _ .vmem, ⟨0, _⟩ => ⟨S2048x512, .f32⟩
  | .local _ .vmem, ⟨1, _⟩ => ⟨S2048x512, .f32⟩
  | .local _ .vmem, ⟨2, _⟩ => ⟨S1000x512, .f32⟩
  | .local _ .vmem, ⟨3, _⟩ => ⟨S1x1000, .f32⟩
  | .local _ .vmem, ⟨4, _⟩ => ⟨S2048x1000, .f32⟩
  | .local _ .vmem, ⟨5, _⟩ => ⟨S2048x1000, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x512_S1000_d1 : S1000x512.ReducesTo [1] S1000
  h_S_ : 0 < S_.numel
  bcast_S_S1000 : S_.BroadcastsInDim S1000 (![] : Fin 0 → Fin S1000.rank)
  shapeCasts_S1000_S1x1000 : S1000.ShapeCasts S1x1000
  inb_S2048x512_S2048x512_0_0 : ∀ a, (![0, 0] : Fin 2 → Nat) a + S2048x512.size a ≤ S2048x512.size a
  h_S2048x512 : 0 < S2048x512.numel
  inb_S1000x512_S1000x512_0_0 : ∀ a, (![0, 0] : Fin 2 → Nat) a + S1000x512.size a ≤ S1000x512.size a
  h_S1000x512 : 0 < S1000x512.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  reduces_S2048x512_S2048 : S2048x512.Reduces [1] S2048
  shapeCasts_S2048_S2048x1 : S2048.ShapeCasts S2048x1
  broadcasts_S2048x1_S2048x1000 : S2048x1.Broadcasts S2048x1000
  broadcasts_S1x1000_S2048x1000 : S1x1000.Broadcasts S2048x1000
  inb_S2048x1000_S2048x1000_0_0 : ∀ a, (![0, 0] : Fin 2 → Nat) a + S2048x1000.size a ≤ S2048x1000.size a
  h_S2048x1000 : 0 < S2048x1000.numel
  dot_S2048x512_S1000x512_S2048x1000_1_1_0_0_n_n_wf : DotDims.WF S2048x512 S1000x512 S2048x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x512.size a ≤ S1000x512.size a
  hwx0_1 : ∀ i : grid0.Coords, EltTy.bits .f32 = 32 ∨ (Rect.block (s := S1000x512) S1000x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1000.size a ≤ S32768x1000.size a
  hwx0_3 : ∀ i : grid0.Coords, EltTy.bits .f32 = 32 ∨ (Rect.block (s := S32768x1000) S2048x1000.size (cc0_transform_3 i) (hinb0_3 i)).WholeWords (EltTy.packing .f32)

variable [Facts₀]

def dot_S2048x512_S1000x512_S2048x1000_1_1_0_0_n_n : DotDims S2048x512 S1000x512 S2048x1000 where
  lhsContracting := [1]
  rhsContracting := [1]
  lhsNonContracting := [0]
  rhsNonContracting := [0]
  lhsBatch := []
  rhsBatch := []
  wf := dot_S2048x512_S1000x512_S2048x1000_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2048x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32768x512 : Shape := ⟨2, ![32768, 512]⟩
abbrev S1000x512 : Shape := ⟨2, ![1000, 512]⟩
abbrev S32768x1000 : Shape := ⟨2, ![32768, 1000]⟩
abbrev S_ : Shape := ⟨0, ![]⟩
abbrev S32768 : Shape := ⟨1, ![32768]⟩
abbrev S1000 : Shape := ⟨1, ![1000]⟩
abbrev S32768x1 : Shape := ⟨2, ![32768, 1]⟩
abbrev S1x1000 : Shape := ⟨2, ![1, 1000]⟩

abbrev nBuf : Space → Nat
  | .hbm => 17
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S1000x512, .f32⟩
  | .hbm, ⟨2, _⟩ => ⟨S32768x1000, .f32⟩
  | .hbm, ⟨3, _⟩ => ⟨S32768x512, .f32⟩
  | .hbm, ⟨4, _⟩ => ⟨S_, .f32⟩
  | .hbm, ⟨5, _⟩ => ⟨S32768, .f32⟩
  | .hbm, ⟨6, _⟩ => ⟨S32768, .f32⟩
  | .hbm, ⟨7, _⟩ => ⟨S1000x512, .f32⟩
  | .hbm, ⟨8, _⟩ => ⟨S_, .f32⟩
  | .hbm, ⟨9, _⟩ => ⟨S1000, .f32⟩
  | .hbm, ⟨10, _⟩ => ⟨S1000, .f32⟩
  | .hbm, ⟨11, _⟩ => ⟨S32768x1, .f32⟩
  | .hbm, ⟨12, _⟩ => ⟨S1x1000, .f32⟩
  | .hbm, ⟨13, _⟩ => ⟨S32768x1000, .f32⟩
  | .hbm, ⟨14, _⟩ => ⟨S32768x1000, .f32⟩
  | .hbm, ⟨15, _⟩ => ⟨S32768x1000, .f32⟩
  | .hbm, ⟨16, _⟩ => ⟨S32768x1000, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_v1 : Ref sig .tc := ⟨.hbm, 6, rfl⟩
abbrev main_call1_v0 : Ref sig .tc := ⟨.hbm, 7, rfl⟩
abbrev main_call1_cst : Ref sig .tc := ⟨.hbm, 8, rfl⟩
abbrev main_call1_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  reducesTo_S1000x512_S1000_d1 : S1000x512.ReducesTo [1] S1000
  bcast_S32768_S32768x1_0 : S32768.BroadcastsInDim S32768x1 (![0] : Fin 1 → Fin S32768x1.rank)
  bcast_S1000_S1x1000_1 : S1000.BroadcastsInDim S1x1000 (![1] : Fin 1 → Fin S1x1000.rank)
  bcast_S32768x1_S32768x1000_0_1 : S32768x1.BroadcastsInDim S32768x1000 (![0, 1] : Fin 2 → Fin S32768x1000.rank)
  bcast_S1x1000_S32768x1000_0_1 : S1x1000.BroadcastsInDim S32768x1000 (![0, 1] : Fin 2 → Fin S32768x1000.rank)
  dot_S32768x512_S1000x512_S32768x1000_1_1_0_0_n_n_wf : DotDims.WF S32768x512 S1000x512 S32768x1000 [1] [1] [0] [0] [] []

variable [Facts₀]

def dot_S32768x512_S1000x512_S32768x1000_1_1_0_0_n_n : DotDims S32768x512 S1000x512 S32768x1000 where
  lhsContracting := [1]
  rhsContracting := [1]
  lhsNonContracting := [0]
  rhsNonContracting := [0]
  lhsBatch := []
  rhsBatch := []
  wf := dot_S32768x512_S1000x512_S32768x1000_1_1_0_0_n_n_wf

class Facts : Prop extends Facts₀ where

variable [Facts]
-- ==== Proof.LibTransposedMatmul.lean ====
/-
  A matrix product against a TRANSPOSED right operand, into a zero accumulator, read at a row and a column.

  For dimension numbers that contract the left operand's columns with the right operand's COLUMNS (no batch axis) —
  the product  A Bᵀ  of an `[M, K]` matrix and an `[N, K]` matrix —, entry `(r, c)` accumulated into zero is the sum over
  `k` of `lhs (r, k) * rhs (c, k)` on the extended reals: the accumulator contributes `0`, and the contraction index,
  a rank-one index, is re-indexed by its one coordinate. Stated for any extents and float formats, with the dimension
  numbers given by their six lists, so that any printed record with these lists unifies.
-/
import Idealize.ShloMosaic.PureOps.Ideal.Laws
import Idealize.ShloMosaic.Lib.ValueIdx

namespace Cert.Lib.TransposedMatmul

open Idealize.ShloMosaic Idealize.ShloMosaic.ValueIdx

set_option backward.isDefEq.respectTransparency.types false in
/-- The product of `[M, K]` by the transpose of `[N, K]` into the zero splat, at `(r, c)`: `∑ k, lhs (r, k) * rhs (c, k)`. -/
theorem matmul_zero_apply {M K N : ℕ} {φ₁ φ₂ : FTy}
    (d : DotDims ⟨2, ![M, K]⟩ ⟨2, ![N, K]⟩ ⟨2, ![M, N]⟩)
    (hlc : d.lhsContracting = [1]) (hrc : d.rhsContracting = [1])
    (hln : d.lhsNonContracting = [0]) (hrn : d.rhsNonContracting = [0])
    (hlb : d.lhsBatch = []) (hrb : d.rhsBatch = [])
    (prec : Option ContractPrecision) (lhs : FVec Ideal ⟨2, ![M, K]⟩ φ₁) (rhs : FVec Ideal ⟨2, ![N, K]⟩ φ₂)
    (r : Fin M) (c : Fin N) :
    FloatOps.matmul d prec lhs rhs (constant ⟨2, ![M, N]⟩ .f32 0x00000000#32) (ix2 r c)
      = ∑ k : Fin K, lhs (ix2 r k) * rhs (ix2 c k) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [1], [0], [0], [], [], wf⟩ : DotDims ⟨2, ![M, K]⟩ ⟨2, ![N, K]⟩ ⟨2, ![M, N]⟩) K rfl rfl).symm]
  refine Finset.sum_congr rfl fun k _ => ?_
  have hk := contrEquiv1_symm_val (⟨[1], [1], [0], [0], [], [], wf⟩ : DotDims ⟨2, ![M, K]⟩ ⟨2, ![N, K]⟩ ⟨2, ![M, N]⟩) K rfl rfl k
  have el : (⟨[1], [1], [0], [0], [], [], wf⟩ : DotDims ⟨2, ![M, K]⟩ ⟨2, ![N, K]⟩ ⟨2, ![M, N]⟩).lhsIdx (ix2 r c)
      ((contrEquiv1 (⟨[1], [1], [0], [0], [], [], wf⟩ : DotDims ⟨2, ![M, K]⟩ ⟨2, ![N, K]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [1], [0], [0], [], [], wf⟩ : DotDims ⟨2, ![M, K]⟩ ⟨2, ![N, K]⟩ ⟨2, ![M, N]⟩).rhsIdx (ix2 r c)
      ((contrEquiv1 (⟨[1], [1], [0], [0], [], [], wf⟩ : DotDims ⟨2, ![M, K]⟩ ⟨2, ![N, K]⟩ ⟨2, ![M, N]⟩) K rfl rfl).symm k) = ix2 c k :=
    funext fun a => Fin.ext (by
      match a with
      | ⟨0, h0⟩ =>
        unfold DotDims.rhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.rhsIdx_val_of_single _ rfl _ _).trans hk)
  rw [el, er]

end Cert.Lib.TransposedMatmul
-- ==== Proof.LibColumnLayout.lean ====
/-
  COLUMN FORMS OF THE LAYOUT OPERATIONS, READ AT AN INDEX GIVEN BY COORDINATES. A sum over the last axis kept as a
  column (`keepdims`) is a vector `[a]` cast to `[a, 1]` and then broadcast along the new unit axis to `[a, b]`:
  at `(i, j)` both read the vector at `i`. The two lemmas below say so for indices written `ix1` / `ix2`, for any
  element type and any extents; they are the column counterparts of the row forms `shapeCast_a_1a_apply` and
  `broadcastTo_1b_ab_apply`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- An `[a]` array cast to the column `[a, 1]` reads, at `(i, u)`, the operand at `i`, whatever the unit coordinate
    `u`: the two row-major positions are `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry in row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.ColumnLayout
-- ==== Proof.LibAxisSums.lean ====
/-
  Sums along axes of small-rank arrays, read at coordinates, at the ideal values (floats are extended reals,
  every sum exact). For any extents and any float type:

  * a vector sum over the MIDDLE axis of a rank-3 array [a, b, c] into [a, c], at (p, w), is the sum over
    n < b of the array at (p, n, w) (`multiReduction_add_mid_apply`);
  * a vector sum over the LAST axis of a rank-2 array [a, b] into [a], at p, is the sum over k < b of the array
    at (p, k) (`multiReduction_add_last_apply`);
  * a host sum over the TWO TRAILING axes of a rank-3 array [a, b, c] into [a], at p, is the initial value plus
    the double sum over n < b and k < c of the array at (p, n, k) (`hostReduceAdd_trailing_two_apply`): the
    indices that drop to p are exactly the (p, n, k), in bijection with the pairs (n, k).
-/
import Idealize.ShloMosaic.PureOps.Ideal.Laws
import Idealize.ShloMosaic.Lib.ValueIdx

noncomputable section

namespace Cert.Lib.AxisSums

open Idealize.ShloMosaic Idealize.ShloMosaic.ValueIdx

variable {φ : FTy}

/-- A vector sum over the middle axis of [a, b, c], read at (p, w): the sum over the middle coordinate. -/
theorem multiReduction_add_mid_apply {a b c : Nat} (src : FVec Ideal ⟨3, ![a, b, c]⟩ φ) (acc : BitVec φ.bits)
    (h : (⟨3, ![a, b, c]⟩ : Shape).Reduces [1] ⟨2, ![a, c]⟩) (hφ : FKind.Formats φ)
    (hacc : acc = FKind.add.neutral φ hφ) (p : Fin a) (w : Fin c) :
    multiReduction .add [1] ⟨2, ![a, c]⟩ src acc h hφ hacc (ix2 p w) = ∑ n : Fin b, src (ix3 p n w) := by
  rw [Ideal.multiReduction_add_single]
  refine Finset.sum_congr rfl fun n _ => ?_
  exact congrArg src (funext fun d => Fin.ext (by match d with | ⟨0, _⟩ => rfl | ⟨1, _⟩ => rfl | ⟨2, _⟩ => rfl))

/-- A vector sum over the last axis of [a, b], read at p: the sum over the last coordinate. -/
theorem multiReduction_add_last_apply {a b : Nat} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => ?_
  exact congrArg src (funext fun d => Fin.ext (by match d with | ⟨0, _⟩ => rfl | ⟨1, _⟩ => rfl))

/-- An index of [a, b, c] drops, over its two trailing axes, to its leading coordinate. -/
theorem drop_trailing_two {a b c : Nat} (h : (⟨3, ![a, b, c]⟩ : Shape).ReducesTo [1, 2] ⟨1, ![a]⟩)
    (i : (⟨3, ![a, b, c]⟩ : Shape).Idx) : h.drop i = ix1 (i 0) := by
  funext d
  match d with
  | ⟨0, _⟩ => exact Fin.ext (h.drop_apply_val_of_eq i ⟨0, Nat.zero_lt_one⟩ 0 (Nat.zero_lt_one) rfl)

/-- A host sum over the two trailing axes of [a, b, c], read at p: the initial value plus the double sum over
    the two trailing coordinates. -/
theorem hostReduceAdd_trailing_two_apply {a b c : Nat} (h : (⟨3, ![a, b, c]⟩ : Shape).ReducesTo [1, 2] ⟨1, ![a]⟩)
    (x : (⟨3, ![a, b, c]⟩ : Shape).Idx → EReal) (init : EReal) (p : Fin a) :
    Ideal.hostReduceAdd h x init (ix1 p) = init + ∑ n : Fin b, ∑ k : Fin c, x (ix3 p n k) := by
  unfold Ideal.hostReduceAdd
  refine congrArg (init + ·) ?_
  rw [← Finset.sum_product' (Finset.univ : Finset (Fin b)) (Finset.univ : Finset (Fin c)) fun n k => x (ix3 p n k)]
  refine Finset.sum_nbij' (fun i => (i 1, i 2)) (fun q => ix3 p q.1 q.2) ?_ ?_ ?_ ?_ ?_
  · intro i _; exact Finset.mem_product.2 ⟨Finset.mem_univ _, Finset.mem_univ _⟩
  · intro q _
    refine Finset.mem_filter.2 ⟨Finset.mem_univ _, ?_⟩
    rw [drop_trailing_two]
    rfl
  · intro i hi
    have hj := (Finset.mem_filter.1 hi).2
    rw [drop_trailing_two] at hj
    have h0 : i 0 = p := congrFun hj 0
    funext d
    match d with
    | ⟨0, _⟩ => exact h0.symm
    | ⟨1, _⟩ => rfl
    | ⟨2, _⟩ => rfl
  · intro q _; rfl
  · intro i hi
    have hj := (Finset.mem_filter.1 hi).2
    rw [drop_trailing_two] at hj
    have h0 : i 0 = p := congrFun hj 0
    refine congrArg x ?_
    funext d
    match d with
    | ⟨0, _⟩ => exact h0
    | ⟨1, _⟩ => rfl
    | ⟨2, _⟩ => rfl

end Cert.Lib.AxisSums

end
-- ==== Proof.Payload.lean ====
/-
  The kernel body's stored value, read at a row and a column of the output block.

  At a grid point the body holds a block `a` of 2048 rows of `x`, all 1000 rows `b` of the weights, and a row `r` of 1000
  reciprocal weight norms.  Entry `(p, q)` of what it stores is

      (∑ k, a (p, k) * b (q, k)) * rsqrt (∑ k, a (p, k) * a (p, k)) * r (0, q):

  the matrix product contracts the feature axis of both operands into a zero accumulator; the sum of squares of row `p`,
  kept as a column and repeated along the row, scales the whole row `p`; the row of reciprocal norms, repeated down the
  rows, scales column `q`.
-/
import proofs.«153087_j58076547777061_2_alg».proof.Proof.Gen.KernelIdeal.Skeleton
import proofs.«153087_j58076547777061_2_alg».proof.Proof.LibTransposedMatmul
import proofs.«153087_j58076547777061_2_alg».proof.Proof.LibColumnLayout
import proofs.«153087_j58076547777061_2_alg».proof.Proof.LibAxisSums
import Idealize.ShloMosaic.Lib.ValueLayout
import Idealize.ShloMosaic.Lib.ValueIdx
import Idealize.ShloMosaic.Lib.Pipeline.Value
import Idealize.ShloMosaic.PureOps.Ideal.Laws

noncomputable section

namespace Cert.KernelIdeal.Cosine

open Cert.KernelIdeal Cert.KernelIdeal.Gen Idealize.ShloMosaic Idealize.ShloMosaic.ValueIdx

/-- The product of the block with the transposed weights, into zero, at `(p, q)`: the dot product of the two rows. -/
theorem product_apply (a : FVec Ideal S2048x512 .f32) (b : FVec Ideal S1000x512 .f32) (p : Fin 2048) (q : Fin 1000) :
    matmul dot_S2048x512_S1000x512_S2048x1000_1_1_0_0_n_n none a b (constant S2048x1000 .f32 0x00000000#32) (ix2 p q)
      = ∑ k : Fin 512, a (ix2 p k) * b (ix2 q k) :=
  Cert.Lib.TransposedMatmul.matmul_zero_apply dot_S2048x512_S1000x512_S2048x1000_1_1_0_0_n_n rfl rfl rfl rfl rfl rfl none a b p q

/-- The lane sum over the feature axis, at row `p`. -/
theorem rowsum_apply (src : FVec Ideal S2048x512 .f32) (hφ : FKind.Formats FTy.f32)
    (hacc : (0x00000000#32 : BitVec FTy.f32.bits) = FKind.add.neutral .f32 hφ) (p : Fin 2048) :
    multiReduction .add [1] S2048 src 0x00000000#32 reduces_S2048x512_S2048 hφ hacc (ix1 p) = ∑ k : Fin 512, src (ix2 p k) :=
  Cert.Lib.AxisSums.multiReduction_add_last_apply src _ reduces_S2048x512_S2048 hφ hacc p

/-- The reciprocal square root of a vector, kept as a column and repeated along the rows, at `(p, q)`. -/
theorem rsqrt_column_apply (v : FVec Ideal S2048 .f32) (p : Fin 2048) (q : Fin 1000) :
    broadcastTo S2048x1000 (rsqrt (shapeCast S2048x1 v shapeCasts_S2048_S2048x1)) broadcasts_S2048x1_S2048x1000 (ix2 p q)
      = Ideal.rsqrt (v (ix1 p)) :=
  (ColumnLayout.broadcastTo_a1_ab_apply _ broadcasts_S2048x1_S2048x1000 p q).trans
    (congrArg Ideal.rsqrt (ColumnLayout.shapeCast_a_a1_apply v shapeCasts_S2048_S2048x1 p (0 : Fin 1)))

/-- A row repeated down the rows, at `(p, q)`. -/
theorem row_apply (r : FVec Ideal S1x1000 .f32) (p : Fin 2048) (q : Fin 1000) :
    broadcastTo S2048x1000 (shapeCast S1x1000 r shapeCasts_S1x1000_S1x1000) broadcasts_S1x1000_S2048x1000 (ix2 p q)
      = r (ix2 (0 : Fin 1) q) :=
  (broadcastTo_1b_ab_apply _ broadcasts_S1x1000_S2048x1000 p q).trans
    (congrFun (shapeCast_self r shapeCasts_S1x1000_S1x1000) _)

/-- Entry `(p, q)` of the stored block: the dot product of row `p` of the block with weight row `q`, times the
    reciprocal square root of row `p`'s sum of squares, times the `q`-th reciprocal weight norm. -/
theorem payload_apply (a : Vec Ideal S2048x512 .f32) (b : Vec Ideal S1000x512 .f32) (r : Vec Ideal S1x1000 .f32)
    (p : Fin 2048) (q : Fin 1000) :
    k0_pay1 (F := Ideal) a b r (ix2 p q)
      = (∑ k : Fin 512, a (ix2 p k) * b (ix2 q k)) * Ideal.rsqrt (∑ k : Fin 512, a (ix2 p k) * a (ix2 p k))
          * r (ix2 (0 : Fin 1) q) := by
  unfold k0_pay1
  exact congrArg₂ (· * ·)
    (congrArg₂ (· * ·) (product_apply a b p q)
      ((rsqrt_column_apply _ p q).trans (congrArg Ideal.rsqrt (rowsum_apply (mulf a a) _ _ p))))
    (row_apply r p q)

end Cert.KernelIdeal.Cosine

end
-- ==== Proof.LibFiniteEntries.lean ====
/-
  A true `jnp.all(jnp.abs(x) < inf)` says that every entry of `x` is a real number.

  On the extended reals `|v| = max v (-v)` is `⊤` at both infinities, and the pattern of `+inf` denotes `⊤`; so
  `|v| < +inf` holds exactly when `v` is neither infinity, that is, when `v` is the coercion of a real.  A host reduce
  by `and` over every axis that comes out `1` had a `1` at every index, so each entry passed that comparison.
  Stated for any shape of `f32` entries, in the spelling a printed finiteness precondition has: the comparison
  `olt` of `Host.absf x` against the rank-0 constant `0x7F800000` broadcast to the shape, reduced into rank 0.
-/
import Idealize.ShloMosaic.PureOps.Ideal.Laws
import Idealize.ShloMosaic.Lib.ReduceAll

noncomputable section

namespace Cert.Lib.FiniteEntries

open Idealize.ShloMosaic

/-- The pattern of `+inf` denotes the top of the extended reals. -/
theorem ofBits_inf : Ideal.ofBits .f32 0x7F800000#32 = ⊤ := by
  simp [Ideal.ofBits, Ideal.ieee]

/-- An extended real whose absolute value is below `+inf` is a real. -/
theorem real_of_abs_lt_inf (v : EReal) (h : Ideal.cmp .olt (max v (-v)) (Ideal.ofBits .f32 0x7F800000#32) = 1#1) :
    ∃ r : ℝ, v = (r : EReal) := by
  rw [ofBits_inf] at h
  induction v using EReal.rec with
  | bot => simp [Ideal.cmp] at h
  | top => simp [Ideal.cmp] at h
  | coe r => exact ⟨r, rfl⟩

/-- The rank-0 shape has one index. -/
instance : Subsingleton (⟨0, ![]⟩ : Shape).Idx := ⟨fun _ _ => funext fun d => d.elim0⟩

/-- If `jnp.all(jnp.abs(x) < inf)`, as a host program prints it, is `1`, every entry of `x` is a real. -/
theorem entries_real {s : Shape} {axes : List (Fin s.rank)}
    (hb : (⟨0, ![]⟩ : Shape).BroadcastsInDim s (![] : Fin 0 → Fin s.rank))
    (hr : s.ReducesTo axes ⟨0, ![]⟩) (hu : 0 < (⟨0, ![]⟩ : Shape).numel) (x : FVec Ideal s .f32)
    (j : (⟨0, ![]⟩ : Shape).Idx)
    (h : Host.reduce IntOp.andi
          (cmpf .olt (Host.absf x) (broadcastInDim s ![] hb (constant (F := Ideal) ⟨0, ![]⟩ .f32 0x7F800000#32)))
          (constantI ⟨0, ![]⟩ 1 1#1) hr hu j = 1#1)
    (i : s.Idx) : ∃ r : ℝ, x i = (r : EReal) :=
  real_of_abs_lt_inf (x i) (Host.reduce_andi_all _ _ hr hu j h i)

end Cert.Lib.FiniteEntries

end
-- ==== Proof.LibHostRowSums.lean ====
/-
  Host sums along the last axis of a matrix, read at a row, and a printed positivity test on them, at the ideal values
  (a float is an extended real, every sum exact).  For any extents `[a, b]` and any float type:

  * a host `reduce` with `add` over the last axis, at row `p`, is the initial value plus the sum over `k < b` of the matrix
    at `(p, k)` (`hostRowSum_apply`);
  * if a printed `jnp.all(jnp.sum(y, axis=1) > 0)` — the `and`-reduce into rank 0 of the comparison `ogt` of that row sum
    (from a zero) against the zero constant broadcast along the rows — is `1`, then every row sum of `y` is positive
    (`rowSums_pos`): the reduce had a `1` at every row, the zero pattern denotes `0`, and the comparison is the order's.
-/
import proofs.«153087_j58076547777061_2_alg».proof.Proof.LibFiniteEntries
import Idealize.ShloMosaic.Lib.IdealHost
import Idealize.ShloMosaic.Lib.ReduceAll

noncomputable section

namespace Cert.Lib.HostRowSums

open Idealize.ShloMosaic Idealize.ShloMosaic.ValueIdx

/-- A host sum over the last axis of `[a, b]`, read at row `p`: the initial value plus the sum over the row. -/
theorem hostRowSum_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) := by
  rw [hostReduceAdd_apply, Ideal.hostReduceAdd_single h' h]
  refine congrArg (_ + ·) (Finset.sum_congr rfl fun k _ => ?_)
  exact congrArg x (funext fun d => Fin.ext (by match d with | ⟨0, _⟩ => rfl | ⟨1, _⟩ => rfl))

/-- If `jnp.all(jnp.sum(y, axis=1) > 0)`, as a host program prints it, is `1`, every row of `y` has a positive sum. -/
theorem rowSums_pos {a b : ℕ} (y : FVec Ideal ⟨2, ![a, b]⟩ .f32)
    (h' : (⟨2, ![a, b]⟩ : Shape).ReducesTo [1] ⟨1, ![a]⟩) (h : (⟨2, ![a, b]⟩ : Shape).Reduces [1] ⟨1, ![a]⟩)
    (hb : (⟨0, ![]⟩ : Shape).BroadcastsInDim ⟨1, ![a]⟩ (![] : Fin 0 → Fin 1))
    (hr : (⟨1, ![a]⟩ : Shape).ReducesTo [0] ⟨0, ![]⟩) (hu : 0 < (⟨0, ![]⟩ : Shape).numel)
    (j : (⟨0, ![]⟩ : Shape).Idx)
    (e : Host.reduce IntOp.andi
          (cmpf .ogt (Host.reduceAdd y (constant (F := Ideal) ⟨0, ![]⟩ .f32 0x00000000#32) h' hu)
            (broadcastInDim ⟨1, ![a]⟩ ![] hb (constant (F := Ideal) ⟨0, ![]⟩ .f32 0x00000000#32)))
          (constantI ⟨0, ![]⟩ 1 1#1) hr hu j = 1#1)
    (p : Fin a) : 0 < ∑ k : Fin b, y (ix2 p k) := by
  have h1 : Ideal.cmp .ogt (Host.reduceAdd y (constant (F := Ideal) ⟨0, ![]⟩ .f32 0x00000000#32) h' hu (ix1 p))
      (Ideal.ofBits .f32 0x00000000#32) = 1#1 := Host.reduce_andi_all _ _ hr hu j e (ix1 p)
  rw [hostRowSum_apply y _ h' h hu p] at h1
  have h2 : Ideal.cmp .ogt (Ideal.ofBits .f32 0x00000000#32 + ∑ k : Fin b, y (ix2 p k)) (Ideal.ofBits .f32 0x00000000#32) = 1#1 := h1
  rw [Ideal.ofBits_zero_f32, zero_add] at h2
  by_contra hn
  simp [Ideal.cmp, hn] at h2

end Cert.Lib.HostRowSums

end
-- ==== Proof.LibTypedRefCasts.lean ====
/-
  Typed references to host buffers: contents carried to the buffer's own type and back.

  A host operation of a called function is spelt over typed references: each operand's contents are carried from the
  buffer's type to the value's type on the way in, and the result back on the way out. When such operations are
  composed, every intermediate value appears carried out and straight back in. That round trip is the identity, for
  any signature, any element values and any buffer type; rewriting with it leaves the composed operations bare.
-/
import Idealize.ShloMosaic.Lib.StableHlo

namespace Cert.Lib.TypedRefCasts

open Idealize.ShloMosaic Idealize.ShloMosaic.StableHlo

/-- Contents carried to a typed reference's buffer type and back are the contents: `x.ofBuf (x.toBuf v) = v`.
    Use it as a rewrite rule (`simp only [ofBuf_toBuf]`) on the composed term of a list of typed-reference host
    operations, before comparing that term with anything: it removes every paired transport and leaves only the
    transports at the argument buffers and at the result. -/
theorem ofBuf_toBuf {sig : RefSig} {Val : EltTy → Type} {T : BufTy} (x : TRef sig T) (v : T.Contents Val) :
    x.ofBuf (x.toBuf v) = v := by
  obtain ⟨r, rfl, _, _⟩ := x
  rfl

end Cert.Lib.TypedRefCasts
-- ==== Proof.Spec.lean ====
/-
  Cosine similarity of every row of `x` against every row of the weights, in the two arrangements the programs use.

  Write  d(n, c) = ∑ k, x (n, k) * w (c, k),  s(n) = ∑ k, x (n, k) ^ 2,  u(c) = ∑ k, w (c, k) ^ 2.  One arrangement
  multiplies by reciprocals,

      d(n, c) * rsqrt (s n) * (1 / sqrt (u c)),

  the other divides once by the product of the norms,

      d(n, c) / (sqrt (s n) * sqrt (u c)).

  On the extended reals the two differ where a norm vanishes (then d = 0 as well, and 0 * ∞ = 0 while 0 / 0 is the
  junk value ⊥); when every entry is a real number and every row has a positive sum of squares, all quantities are
  real, both norms are nonzero, and the two are the same real number.
-/
import Idealize.ShloMosaic.PureOps.Ideal.Laws
import Idealize.ShloMosaic.Lib.ValueIdx

noncomputable section

namespace Cert.Cosine

open Idealize.ShloMosaic Idealize.ShloMosaic.ValueIdx

/-- The three arrays' shapes. -/
abbrev SX : Shape := ⟨2, ![32768, 512]⟩
abbrev SW : Shape := ⟨2, ![1000, 512]⟩
abbrev SO : Shape := ⟨2, ![32768, 1000]⟩

/-- The dot product of row `n` of `x` with row `c` of `w`. -/
def dot (x : SX.Idx → EReal) (w : SW.Idx → EReal) (n : Fin 32768) (c : Fin 1000) : EReal :=
  ∑ k : Fin 512, x (ix2 n k) * w (ix2 c k)

/-- The sum of squares of row `n` of `x`. -/
def sqX (x : SX.Idx → EReal) (n : Fin 32768) : EReal := ∑ k : Fin 512, x (ix2 n k) * x (ix2 n k)

/-- The sum of squares of row `c` of `w`. -/
def sqW (w : SW.Idx → EReal) (c : Fin 1000) : EReal := ∑ k : Fin 512, w (ix2 c k) * w (ix2 c k)

/-- The reciprocal norm of weight row `c`, as a quotient of one by the square root. -/
def invNormW (w : SW.Idx → EReal) (c : Fin 1000) : EReal :=
  Ideal.div (Ideal.ofBits .f32 0x3F800000#32) (Ideal.sqrt (sqW w c))

/-- The product-of-reciprocals arrangement. -/
def byReciprocals (x : SX.Idx → EReal) (w : SW.Idx → EReal) : SO.Idx → EReal :=
  fun i => dot x w (i 0) (i 1) * Ideal.rsqrt (sqX x (i 0)) * invNormW w (i 1)

/-- The single-quotient arrangement. -/
def byQuotient (x : SX.Idx → EReal) (w : SW.Idx → EReal) : SO.Idx → EReal :=
  fun i => Ideal.div (dot x w (i 0) (i 1)) (Ideal.sqrt (sqX x (i 0)) * Ideal.sqrt (sqW w (i 1)))

/-- The pattern of `1.0` denotes one. -/
theorem ofBits_one : Ideal.ofBits .f32 0x3F800000#32 = 1 := by
  simp [Ideal.ofBits, Ideal.ieee, -EReal.coe_mul]; norm_num

/-- The coercion of reals into the extended reals commutes with finite sums. -/
theorem coe_sum {ι : Type} (s : Finset ι) (g : ι → ℝ) : ((∑ k ∈ s, g k : ℝ) : EReal) = ∑ k ∈ s, (g k : EReal) := by
  classical
  induction s using Finset.induction_on with
  | empty => simp
  | insert a s ha ih => rw [Finset.sum_insert ha, Finset.sum_insert ha, EReal.coe_add, ih]

/-- A finite sum of products of reals is a real. -/
theorem sum_mul_real {n : ℕ} (f g : Fin n → EReal) (hf : ∀ k, ∃ r : ℝ, f k = r) (hg : ∀ k, ∃ r : ℝ, g k = r) :
    ∃ r : ℝ, ∑ k, f k * g k = r := by
  choose a ha using hf
  choose b hb using hg
  refine ⟨∑ k, a k * b k, ?_⟩
  rw [coe_sum]
  exact Finset.sum_congr rfl fun k _ => by rw [ha, hb, EReal.coe_mul]

/-- The two arrangements agree on reals with positive sums of squares: with `A, B > 0`,
    `D * (√A)⁻¹ * (1 / √B) = D / (√A * √B)`. -/
theorem arrangements_agree (D A B : ℝ) (hA : 0 < A) (hB : 0 < B) :
    (D : EReal) * Ideal.rsqrt (A : EReal) * Ideal.div 1 (Ideal.sqrt (B : EReal))
      = Ideal.div (D : EReal) (Ideal.sqrt (A : EReal) * Ideal.sqrt (B : EReal)) := by
  have hsA : Real.sqrt A ≠ 0 := (Real.sqrt_pos.2 hA).ne'
  have hsB : Real.sqrt B ≠ 0 := (Real.sqrt_pos.2 hB).ne'
  simp only [Ideal.rsqrt_coe, Ideal.sqrt_coe, if_neg (not_lt.2 hA.le), if_neg hA.ne', if_neg (not_lt.2 hB.le)]
  rw [← EReal.coe_mul (Real.sqrt A) (Real.sqrt B), Ideal.div_coe hsB, Ideal.div_coe (mul_ne_zero hsA hsB)]
  rw [one_mul, ← EReal.coe_mul, ← EReal.coe_mul, ← EReal.coe_mul]
  refine congrArg _ ?_
  field_simp

/-- On arrays of reals whose rows all have positive sums of squares the two arrangements are one function. -/
theorem byReciprocals_eq_byQuotient (x : SX.Idx → EReal) (w : SW.Idx → EReal)
    (hx : ∀ i, ∃ r : ℝ, x i = r) (hw : ∀ i, ∃ r : ℝ, w i = r)
    (hpx : ∀ n, 0 < sqX x n) (hpw : ∀ c, 0 < sqW w c) :
    byReciprocals x w = byQuotient x w := by
  funext i
  obtain ⟨D, hD⟩ : ∃ r : ℝ, dot x w (i 0) (i 1) = r := sum_mul_real (fun k => x (ix2 (i 0) k)) (fun k => w (ix2 (i 1) k)) (fun _ => hx _) (fun _ => hw _)
  obtain ⟨A, hA⟩ : ∃ r : ℝ, sqX x (i 0) = r := sum_mul_real (fun k => x (ix2 (i 0) k)) (fun k => x (ix2 (i 0) k)) (fun _ => hx _) (fun _ => hx _)
  obtain ⟨B, hB⟩ : ∃ r : ℝ, sqW w (i 1) = r := sum_mul_real (fun k => w (ix2 (i 1) k)) (fun k => w (ix2 (i 1) k)) (fun _ => hw _) (fun _ => hw _)
  have hA0 : 0 < A := by have := hpx (i 0); rw [hA] at this; exact_mod_cast this
  have hB0 : 0 < B := by have := hpw (i 1); rw [hB] at this; exact_mod_cast this
  show dot x w (i 0) (i 1) * Ideal.rsqrt (sqX x (i 0))
        * Ideal.div (Ideal.ofBits .f32 0x3F800000#32) (Ideal.sqrt (sqW w (i 1)))
      = Ideal.div (dot x w (i 0) (i 1)) (Ideal.sqrt (sqX x (i 0)) * Ideal.sqrt (sqW w (i 1)))
  rw [ofBits_one, hD, hA, hB]
  exact arrangements_agree D A B hA0 hB0

end Cert.Cosine

end
-- ==== Proof.HostPrefix.lean ====
/-
  The array of reciprocal weight norms, as the kernel's region finds it.  Before the region the host squares the weights,
  sums each row from zero, takes the square root, divides a vector of ones by it, and lays the 1000 quotients out as one
  row.  Entry `(0, q)` of that row is therefore one divided by the square root of weight row `q`'s sum of squares.
-/
import proofs.«153087_j58076547777061_2_alg».proof.Proof.Gen.KernelIdeal.Frame
import proofs.«153087_j58076547777061_2_alg».proof.Proof.LibHostRowSums
import proofs.«153087_j58076547777061_2_alg».proof.Proof.LibTypedRefCasts
import proofs.«153087_j58076547777061_2_alg».proof.Proof.Spec
import Idealize.ShloMosaic.Lib.StableHlo.Run
import Idealize.ShloMosaic.Lib.ValueLayout
import Idealize.ShloMosaic.Lib.IdealHost

noncomputable section

namespace Cert.KernelIdeal.Cosine

open Cert.KernelIdeal Cert.KernelIdeal.Gen Idealize.ShloMosaic Idealize.ShloMosaic.TcCoe Idealize.SL.Sem
open Idealize.ShloMosaic.StableHlo Idealize.ShloMosaic.ValueIdx Cert.Cosine

variable (m : (ℓ : Loc nD τ sig) → Buf (Elt Ideal) ℓ)

set_option maxHeartbeats 1000000 in
/-- The row of reciprocal norms is the host operations' composed term of the weights. -/
theorem recipNorms_eq (c : Dev nD) :
    (V m c main_v3 : S1x1000.Idx → EReal)
      = shapeCast S1x1000
          (Host.divf (broadcastInDim S1000 ![] bcast_S_S1000 (constant (F := Ideal) S_ .f32 0x3F800000#32))
            (Host.sqrt (Host.reduceAdd (mulf (m ((c : Thread nD τ).loc main_arg1)) (m ((c : Thread nD τ).loc main_arg1)))
              (constant (F := Ideal) S_ .f32 0x00000000#32) reducesTo_S1000x512_S1000_d1 h_S_)))
          shapeCasts_S1000_S1x1000 := by
  dsimp only [Gen.V]
  simp only [Gen.hostOps0, Gen.hostOps0_1, List.flatten_cons, List.flatten_nil, List.append_nil, List.cons_append,
    List.nil_append]
  after_results
  simp only [Cert.Lib.TypedRefCasts.ofBuf_toBuf]
  rfl

/-- The host's square root of a vector, at an index, is the square root of the entry. -/
theorem host_sqrt_apply {s : Shape} {φ : FTy} (x : FVec Ideal s φ) (i : s.Idx) : Host.sqrt x i = Ideal.sqrt (x i) := rfl

/-- Entry `(0, q)` of the row: one over the square root of weight row `q`'s sum of squares. -/
theorem recipNorms_apply (c : Dev nD) (u : Fin 1) (q : Fin 1000) :
    (V m c main_v3 : S1x1000.Idx → EReal) (ix2 u q) = invNormW (m ((c : Thread nD τ).loc main_arg1)) q := by
  rw [recipNorms_eq, shapeCast_a_1a_apply, hostDivf_apply, broadcastInDim_scalar_apply, constant_apply, host_sqrt_apply,
    Cert.Lib.HostRowSums.hostRowSum_apply _ _ _ (by decide), constant_apply, Ideal.ofBits_zero_f32, zero_add]
  unfold invNormW sqW
  rfl

end Cert.KernelIdeal.Cosine

end
-- ==== Proof.Blocks.lean ====
/-
  From blocks to the whole output array.

  The grid has 16 points.  Point `t` stages rows `2048 t … 2048 t + 2047` of `x`, all of the weights, and the whole row of
  reciprocal weight norms, and writes back rows `2048 t … 2048 t + 2047` of the output.  Entry `(p, q)` of the block it
  writes is therefore entry `(2048 t + p, q)` of the product-of-reciprocals arrangement of the two argument arrays; the
  16 blocks tile the 32768 output rows, row `r` lying in block `r / 2048`, so the output array ends holding that
  arrangement everywhere.
-/
import proofs.«153087_j58076547777061_2_alg».proof.Proof.Gen.KernelIdeal.Value
import proofs.«153087_j58076547777061_2_alg».proof.Proof.Payload
import proofs.«153087_j58076547777061_2_alg».proof.Proof.HostPrefix
import proofs.«153087_j58076547777061_2_alg».proof.Proof.Spec
import Idealize.ShloMosaic.Lib.Pipeline.Value

set_option maxRecDepth 16384

noncomputable section

namespace Cert.KernelIdeal.Cosine

open Cert.KernelIdeal Cert.KernelIdeal.Gen Idealize.ShloMosaic Idealize.ShloMosaic.TcCoe Idealize.SL.Sem
open Idealize.ShloMosaic.Pipeline (Dat)
open Idealize.ShloMosaic.ValueIdx Cert.Cosine

variable (m : (ℓ : Loc nD τ sig) → Buf (Elt Ideal) ℓ)

theorem zero_offsets : (![0, 0] : Fin 2 → Nat) = fun _ => 0 := funext fun a => by fin_cases a <;> rfl

/-- The printed index maps over the grid: the block of `x` and the block of the output move together, one block row per
    point; the weights and the reciprocal norms stay at their one block. -/
theorem index_maps : ∀ t : Fin cfg0.N, t.val < 16
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Every block row of the output is some point's. -/
theorem index_onto : ∀ b : Fin 16, ∃ t : Fin cfg0.N, t.val = b.val :=
  (by decide +kernel : ∀ b : Fin 16, ∃ t : Fin grid0.N, t.val = b.val)

/-- Row `p` of the block of `x` at point `t` is row `2048 t + p` of `x`. -/
theorem xBlock_apply (c : Dev nD) (t : Fin cfg0.N) (p : Fin 2048) (k : Fin 512) (hn : t.val * 2048 + p.val < 32768) :
    (iblk m c 0 t : Vec Ideal S2048x512 .f32) (ix2 p k)
      = (m ((c : Thread nD τ).loc main_arg0) : S32768x512.Idx → EReal) (ix2 ⟨t.val * 2048 + p.val, hn⟩ k) := by
  obtain ⟨-, e00, e01, -⟩ := index_maps t
  show V m c main_arg0 (((cfg0.win 0).blk t).view.emb (ix2 p k)) = _
  rw [V_main_arg0]
  refine congrArg _ (funext fun a => Fin.ext ?_)
  match a with
  | ⟨0, _⟩ => show win0_0.index t (0 : Fin 2) * 2048 + 1 * p.val = t.val * 2048 + p.val; omega
  | ⟨1, _⟩ => show win0_0.index t (1 : Fin 2) * 512 + 1 * k.val = k.val; omega

/-- The block of the weights at any point is the weights. -/
theorem wBlock_apply (c : Dev nD) (t : Fin cfg0.N) (q : Fin 1000) (k : Fin 512) :
    (iblk m c 1 t : Vec Ideal S1000x512 .f32) (ix2 q k)
      = (m ((c : Thread nD τ).loc main_arg1) : S1000x512.Idx → EReal) (ix2 q k) := by
  obtain ⟨-, -, -, e10, e11, -⟩ := index_maps t
  show V m c main_arg1 (((cfg0.win 1).blk t).view.emb (ix2 q k)) = _
  rw [V_main_arg1]
  refine congrArg _ (funext fun a => Fin.ext ?_)
  match a with
  | ⟨0, _⟩ => show win0_1.index t (0 : Fin 2) * 1000 + 1 * q.val = q.val; omega
  | ⟨1, _⟩ => show win0_1.index t (1 : Fin 2) * 512 + 1 * k.val = k.val; omega

/-- The block of reciprocal norms at any point, at `(0, q)`, is the reciprocal norm of weight row `q`. -/
theorem rBlock_apply (c : Dev nD) (t : Fin cfg0.N) (q : Fin 1000) :
    (iblk m c 2 t : Vec Ideal S1x1000 .f32) (ix2 (0 : Fin 1) q) = invNormW (m ((c : Thread nD τ).loc main_arg1)) q := by
  obtain ⟨-, -, -, -, -, e20, e21, -⟩ := index_maps t
  show V m c main_v3 (((cfg0.win 2).blk t).view.emb (ix2 (0 : Fin 1) q)) = _
  refine Eq.trans (congrArg _ (funext fun a => Fin.ext ?_)) (recipNorms_apply m c (0 : Fin 1) q)
  match a with
  | ⟨0, _⟩ => show win0_2.index t (0 : Fin 2) * 1 + 1 * 0 = 0; omega
  | ⟨1, _⟩ => show win0_2.index t (1 : Fin 2) * 1000 + 1 * q.val = q.val; omega

/-- What point `t` writes back is block `t` of the product-of-reciprocals arrangement of the argument arrays. -/
theorem flushed_eq (c : Dev nD) (t : Fin cfg0.N) :
    (dats m 0 c).flushed 3 t = ((cfg0.win 3).blk t).view.read (Elt Ideal)
      (byReciprocals (m ((c : Thread nD τ).loc main_arg0)) (m ((c : Thread nD τ).loc main_arg1))) := by
  rw [Value.flushed3]
  unfold out0_3
  rw [View.canon_unit_zero zero_offsets]
  simp only [View.ld_unit_zero (S := S2048x512) zero_offsets, View.ld_unit_zero (S := S1000x512) zero_offsets,
    View.ld_unit_zero (S := S1x1000) zero_offsets]
  obtain ⟨ht, -, -, -, -, -, -, e30, e31⟩ := index_maps t
  refine funext fun (j : S2048x1000.Idx) => ?_
  obtain ⟨p, q, rfl⟩ : ∃ (p : Fin 2048) (q : Fin 1000), j = ix2 p q := ⟨j 0, j 1, eq_ix2 j⟩
  have hn : t.val * 2048 + p.val < 32768 := by have := p.isLt; omega
  have hemb : ((cfg0.win 3).blk t).view.emb (ix2 p q) = ix2 (⟨t.val * 2048 + p.val, hn⟩ : Fin 32768) q := by
    refine funext fun a => Fin.ext ?_
    match a with
    | ⟨0, _⟩ => show win0_3.index t (0 : Fin 2) * 2048 + 1 * p.val = t.val * 2048 + p.val; omega
    | ⟨1, _⟩ => show win0_3.index t (1 : Fin 2) * 1000 + 1 * q.val = q.val; omega
  show k0_pay1 (F := Ideal) (iblk m c 0 t) (iblk m c 1 t) (iblk m c 2 t) (ix2 p q)
      = byReciprocals (m ((c : Thread nD τ).loc main_arg0)) (m ((c : Thread nD τ).loc main_arg1))
          (((cfg0.win 3).blk t).view.emb (ix2 p q))
  rw [hemb]
  refine (payload_apply (iblk m c 0 t) (iblk m c 1 t) (iblk m c 2 t) p q).trans ?_
  simp only [xBlock_apply m c t p _ hn, wBlock_apply m c t q, rBlock_apply m c t q]
  rfl

/-- An index of the output is in point `t`'s block exactly when its row is among the block's 2048 rows. -/
theorem mem_block (t : Fin cfg0.N) (i : S32768x1000.Idx) :
    i ∈ ((cfg0.win 3).blk t).view.set ↔ ∀ a : Fin 2, win0_3.index t a * S2048x1000.size a ≤ (i a).val
      ∧ (i a).val < win0_3.index t a * S2048x1000.size a + S2048x1000.size a := by
  show i ∈ ((View.whole main_v4).slice (win0_3.rect t)).set ↔ _
  rw [View.set_slice_whole, Rect.mem_set_unit]
  exact Iff.rfl

/-- Every index of the output lies in the block of the point that holds its row. -/
theorem covered (i : S32768x1000.Idx) :
    ∃ t : Fin cfg0.N, (cfg0.win 3).flush t = true ∧ i ∈ ((cfg0.win 3).blk t).view.set := by
  have hi0 : (i 0).val < 32768 := (i 0).isLt
  have hi1 : (i 1).val < 1000 := (i 1).isLt
  obtain ⟨t, ht⟩ := index_onto ⟨(i 0).val / 2048, by omega⟩
  have ht' : t.val = (i 0).val / 2048 := ht
  obtain ⟨-, -, -, -, -, -, -, e30, e31⟩ := index_maps t
  refine ⟨t, flush0_3 t, ?_⟩
  rw [mem_block]
  intro a
  match a with
  | ⟨0, _⟩ =>
    show win0_3.index t (0 : Fin 2) * 2048 ≤ (i 0).val ∧ (i 0).val < win0_3.index t (0 : Fin 2) * 2048 + 2048
    omega
  | ⟨1, _⟩ =>
    show win0_3.index t (1 : Fin 2) * 1000 ≤ (i 1).val ∧ (i 1).val < win0_3.index t (1 : Fin 2) * 1000 + 1000
    omega

/-- After the run the output array is the product-of-reciprocals arrangement of the two argument arrays. -/
theorem final (c : Dev nD) :
    (dats m 0 c).arrAt 3 cfg0.N
      = byReciprocals (m ((c : Thread nD τ).loc main_arg0)) (m ((c : Thread nD τ).loc main_arg1)) :=
  (dats m 0 c).arrAt_eq_of_cover 3 _ (fun t _ => flushed_eq m c t) covered

/-- The kernel's run with the output array named: it ends at the product-of-reciprocals arrangement, the arguments
    unchanged. -/
theorem run (ρ : Dev nD → PrngReg) :
    θ_run defs (onTc (τ := τ) (main (F := Ideal))) ⟨m, fun _ => 0, ρ⟩ fun r => ∀ c : Dev nD,
      r.2.mem ((c : Thread nD τ).loc main_v4)
          = byReciprocals (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Cosine

end
-- ==== Proof.RefSide.lean ====
/-
  The reference's result, read one operation at a time, is the single-quotient arrangement of the cosine similarity:
  at `(n, c)` the contraction of row `n` of `x` with row `c` of the weights, divided by the product of the square roots of
  the two rows' sums of squares.  Every sum starts from a zero, which adds nothing; every broadcast reads the row's or
  the column's own norm.
-/
import proofs.«153087_j58076547777061_2_alg».proof.Proof.Gen.ReferenceIdeal.Read
import proofs.«153087_j58076547777061_2_alg».proof.Proof.Spec

noncomputable section

namespace Cert.ReferenceIdeal.Cosine

open Cert.ReferenceIdeal Cert.ReferenceIdeal.Read Idealize.ShloMosaic Idealize.ShloMosaic.ValueIdx Cert.Cosine

/-- The reference's last stage is the single-quotient arrangement of its two arguments. -/
theorem reference_eq (x : (⟨S32768x512, .f32⟩ : BufTy).Contents (Elt Ideal)) (w : (⟨S1000x512, .f32⟩ : BufTy).Contents (Elt Ideal)) :
    val_main_v8 (F := Ideal) x w = byQuotient x w := by
  funext i
  obtain ⟨n, c, rfl⟩ : ∃ (n : Fin 32768) (c : Fin 1000), i = ix2 n c := ⟨i 0, i 1, eq_ix2 i⟩
  have e1 : ∀ k : Fin 512, lidx_main_v0 (ix2 n c) k = ix2 n k := fun k =>
    funext fun a => Fin.ext (by match a with | ⟨0, _⟩ => rfl | ⟨1, _⟩ => rfl)
  have e2 : ∀ k : Fin 512, ridx_main_v0 (ix2 n c) k = ix2 c k := fun k =>
    funext fun a => Fin.ext (by match a with | ⟨0, _⟩ => rfl | ⟨1, _⟩ => rfl)
  have e3 : ∀ k : Fin 512, idx_main_call0_v1 (idx_main_v3 (idx_main_v5 (ix2 n c))) k = ix2 n k := fun k =>
    funext fun a => Fin.ext (by match a with | ⟨0, _⟩ => rfl | ⟨1, _⟩ => rfl)
  have e4 : ∀ k : Fin 512, idx_main_call1_v1 (idx_main_v4 (idx_main_v6 (ix2 n c))) k = ix2 c k := fun k =>
    funext fun a => Fin.ext (by match a with | ⟨0, _⟩ => rfl | ⟨1, _⟩ => rfl)
  rw [val_main_v8_apply, val_main_v0_apply, val_main_v7_apply, val_main_v5_apply, val_main_v3_apply, val_main_v1_apply,
    val_main_call0_v1_apply, val_main_v6_apply, val_main_v4_apply, val_main_v2_apply, val_main_call1_v1_apply]
  simp only [val_main_call0_v0_apply, val_main_call1_v0_apply, val_main_call0_cst_apply, val_main_call1_cst_apply,
    e1, e2, e3, e4, Ideal.hostDivf_def, Ideal.mulf_def, Ideal.hostUnary_sqrt_def, Ideal.ofBits_def,
    Ideal.ofBits_zero_f32, zero_add]
  rfl

end Cert.ReferenceIdeal.Cosine

end
-- ==== Proof.Pre.lean ====
/-
  What the precondition says of the two argument arrays: every entry of `x` and of the weights is a real number, and
  every row of either has a positive sum of squares.  The printed test is a conjunction of four `jnp.all`s; each, being
  `1`, holds at every index.
-/
import proofs.«153087_j58076547777061_2_alg».proof.Pre_finite_inputs
import proofs.«153087_j58076547777061_2_alg».proof.Proof.Gen.Pre_finite_inputs
import proofs.«153087_j58076547777061_2_alg».proof.Proof.LibFiniteEntries
import proofs.«153087_j58076547777061_2_alg».proof.Proof.LibHostRowSums
import proofs.«153087_j58076547777061_2_alg».proof.Proof.Spec

noncomputable section

namespace Cert.Pre_finite_inputs.Cosine

open Cert.Pre_finite_inputs Idealize.ShloMosaic Idealize.ShloMosaic.ValueIdx Cert.Cosine

/-- Under the precondition both arrays hold reals and every row of either has a positive sum of squares. -/
theorem of_pre (x : FVec Ideal S32768x512 .f32) (w : FVec Ideal S1000x512 .f32)
    (h : fn (F := Ideal) x w = fun _ => 1#1) :
    (∀ i, ∃ r : ℝ, x i = r) ∧ (∀ i, ∃ r : ℝ, w i = r) ∧ (∀ n, 0 < sqX x n) ∧ (∀ c, 0 < sqW w c) := by
  have h0 := congrFun h ix0
  dsimp only [fn, fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨Cert.Lib.FiniteEntries.entries_real _ _ _ x ix0 h1, Cert.Lib.FiniteEntries.entries_real _ _ _ w ix0 h2,
    Cert.Lib.HostRowSums.rowSums_pos (mulf x x) _ (by decide) _ _ _ ix0 h3,
    Cert.Lib.HostRowSums.rowSums_pos (mulf w w) _ (by decide) _ _ _ ix0 h4⟩

end Cert.Pre_finite_inputs.Cosine

end
-- ==== Proof.lean ====
/-
  Cosine similarity of 32768 rows of `x` against 1000 weight rows, kernel against reference, on the extended reals.

  With  d(n, c) = ∑ k, x (n, k) * w (c, k),  s(n) = ∑ k, x (n, k) ^ 2  and  u(c) = ∑ k, w (c, k) ^ 2,  the kernel's output at
  `(n, c)` is  d(n, c) * rsqrt (s n) * (1 / sqrt (u c))  — the reciprocal weight norms computed by the host before the
  launch, the matrix product and the reciprocal row norm inside it, 2048 rows of `x` per grid point — and the
  reference's is  d(n, c) / (sqrt (s n) * sqrt (u c)).

  The precondition keeps the reference's quotient inside its domain: every entry finite, and every row of `x` and of the
  weights with a positive sum of squares (a zero row would make the reference divide zero by zero).  Then `d`, `s`, `u`
  are real, both norms are nonzero reals, and the two expressions are the same real number (Proof/Spec.lean).

  The parts: the kernel body's stored block entry by entry (Proof/Payload.lean); the host-computed row of reciprocal
  norms (Proof/HostPrefix.lean); the 16 blocks assembled into the whole output (Proof/Blocks.lean); the reference read
  one operation at a time (Proof/RefSide.lean); what the precondition gives (Proof/Pre.lean).  The kernel's
  idealization rewrote nothing, so there is nothing to preserve.
-/
import proofs.«153087_j58076547777061_2_alg».proof.Defs
import proofs.«153087_j58076547777061_2_alg».proof.Proof.Gen.Kernel
import proofs.«153087_j58076547777061_2_alg».proof.Proof.Gen.Kernel.Frame
import proofs.«153087_j58076547777061_2_alg».proof.Proof.Gen.KernelIdeal
import proofs.«153087_j58076547777061_2_alg».proof.Proof.Gen.KernelIdeal.Frame
import proofs.«153087_j58076547777061_2_alg».proof.Proof.Gen.KernelIdeal.Value
import proofs.«153087_j58076547777061_2_alg».proof.Proof.Gen.ReferenceIdeal
import proofs.«153087_j58076547777061_2_alg».proof.Proof.Gen.ReferenceIdeal.Run
import proofs.«153087_j58076547777061_2_alg».proof.Proof.Gen.ReferenceIdeal.Read
import proofs.«153087_j58076547777061_2_alg».proof.Proof.Gen.Pre_finite_inputs
import proofs.«153087_j58076547777061_2_alg».proof.Proof.Blocks
import proofs.«153087_j58076547777061_2_alg».proof.Proof.RefSide
import proofs.«153087_j58076547777061_2_alg».proof.Proof.Pre

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on `x` and the weights, the kernel ends at the product-of-reciprocals arrangement and the
    reference at the single quotient; under the precondition these are one array. -/
theorem algebraic : Cert.algebraic_KernelIdeal_ReferenceIdeal := by
  intro m ρ m' ρ' hpre hagree
  refine ⟨fun c => Cert.Cosine.byReciprocals
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Cosine.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.Cosine.reference_eq, (hagree c).1, (hagree c).2]
  obtain ⟨hx, hw, hpx, hpw⟩ := Cert.Pre_finite_inputs.Cosine.of_pre _ _ (hpre c)
  exact (Cert.Cosine.byReciprocals_eq_byQuotient _ _ hx hw hpx hpw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
